-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S500000 : Shape := ⟨1, ![500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000 : S_.BroadcastsInDim S500000 (![] : Fin 0 → Fin S500000.rank)
  reducesTo_S500000_S_d0 : S500000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x1 .f32) (main_arg8 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg7
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x500000 32) (main_arg2 : FVec F S500000 .f32) (main_arg3 : FVec F S256x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S2x500000 : Shape := ⟨2, ![2, 500000]⟩
abbrev S500000 : Shape := ⟨1, ![500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S2000x256 : Shape := ⟨2, ![2000, 256]⟩
abbrev S550000x256 : Shape := ⟨2, ![550000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 101
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S500000, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S50000, .i32⟩
  | .hbm, ⟨14, _⟩ => ⟨S550000, .i32⟩
  | .hbm, ⟨15, _⟩ => ⟨S550000, .i32⟩
  | .hbm, ⟨16, _⟩ => ⟨S_, .f32⟩
  | .hbm, ⟨17, _⟩ => ⟨S50000, .f32⟩
  | .hbm, ⟨18, _⟩ => ⟨S550000, .f32⟩
  | .hbm, ⟨19, _⟩ => ⟨S_, .f32⟩
  | .hbm, ⟨20, _⟩ => ⟨S50000, .f32⟩
  | .hbm, ⟨21, _⟩ => ⟨S550000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S550000, .i32⟩
  | .hbm, ⟨33, _⟩ => ⟨S550000, .i1⟩
  | .hbm, ⟨34, _⟩ => ⟨S_, .i32⟩
  | .hbm, ⟨35, _⟩ => ⟨S550000, .i32⟩
  | .hbm, ⟨36, _⟩ => ⟨S550000, .i32⟩
  | .hbm, ⟨37, _⟩ => ⟨S550000, .i32⟩
  | .hbm, ⟨38, _⟩ => ⟨S550000x1, .i32⟩
  | .hbm, ⟨39, _⟩ => ⟨S550000, .f32⟩
  | .hbm, ⟨40, _⟩ => ⟨S550000, .f32⟩
  | .hbm, ⟨41, _⟩ => ⟨S_, .i32⟩
  | .hbm, ⟨42, _⟩ => ⟨S550000, .i32⟩
  | .hbm, ⟨43, _⟩ => ⟨S550000, .i1⟩
  | .hbm, ⟨44, _⟩ => ⟨S_, .i32⟩
  | .hbm, ⟨45, _⟩ => ⟨S550000, .i32⟩
  | .hbm, ⟨46, _⟩ => ⟨S550000, .i32⟩
  | .hbm, ⟨47, _⟩ => ⟨S550000, .i32⟩
  | .hbm, ⟨48, _⟩ => ⟨S550000x1, .i32⟩
  | .hbm, ⟨49, _⟩ => ⟨S550000, .f32⟩
  | .hbm, ⟨50, _⟩ => ⟨S550000, .f32⟩
  | .hbm, ⟨51, _⟩ => ⟨S50000x256, .f32⟩
  | .hbm, ⟨52, _⟩ => ⟨S_, .i32⟩
  | .hbm, ⟨53, _⟩ => ⟨S550000, .i32⟩
  | .hbm, ⟨54, _⟩ => ⟨S550000, .i1⟩
  | .hbm, ⟨55, _⟩ => ⟨S_, .i32⟩
  | .hbm, ⟨56, _⟩ => ⟨S550000, .i32⟩
  | .hbm, ⟨57, _⟩ => ⟨S550000, .i32⟩
  | .hbm, ⟨58, _⟩ => ⟨S550000, .i32⟩
  | .hbm, ⟨59, _⟩ => ⟨S550000x1, .i32⟩
  | .hbm, ⟨60, _⟩ => ⟨S550000x256, .f32⟩
  | .hbm, ⟨61, _⟩ => ⟨S550000x1, .f32⟩
  | .hbm, ⟨62, _⟩ => ⟨S550000x256, .f32⟩
  | .hbm, ⟨63, _⟩ => ⟨S550000x256, .f32⟩
  | .hbm, ⟨64, _⟩ => ⟨S_, .f32⟩
  | .hbm, ⟨65, _⟩ => ⟨S50000x256, .f32⟩
  | .hbm, ⟨66, _⟩ => ⟨S550000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .i32⟩
  | .hbm, ⟨76, _⟩ => ⟨S550000, .i32⟩
  | .hbm, ⟨77, _⟩ => ⟨S550000, .i1⟩
  | .hbm, ⟨78, _⟩ => ⟨S_, .i32⟩
  | .hbm, ⟨79, _⟩ => ⟨S550000, .i32⟩
  | .hbm, ⟨80, _⟩ => ⟨S550000, .i32⟩
  | .hbm, ⟨81, _⟩ => ⟨S550000, .i32⟩
  | .hbm, ⟨82, _⟩ => ⟨S550000x1, .i32⟩
  | .hbm, ⟨83, _⟩ => ⟨S550000x256, .f32⟩
  | .hbm, ⟨84, _⟩ => ⟨S550000x1, .f32⟩
  | .hbm, ⟨85, _⟩ => ⟨S550000x256, .f32⟩
  | .hbm, ⟨86, _⟩ => ⟨S550000x256, .f32⟩
  | .hbm, ⟨87, _⟩ => ⟨S_, .f32⟩
  | .hbm, ⟨88, _⟩ => ⟨S50000x256, .f32⟩
  | .hbm, ⟨89, _⟩ => ⟨S550000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | .hbm, ⟨97, _⟩ => ⟨S50000x1, .f32⟩
  | .hbm, ⟨98, _⟩ => ⟨S1x1, .f32⟩
  | .hbm, ⟨99, _⟩ => ⟨S50000x1, .f32⟩
  | .hbm, ⟨100, _⟩ => ⟨S50000x1, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S50000 : S_.BroadcastsInDim S50000 (![] : Fin 0 → Fin S50000.rank)
  bcast_S550000_S550000x1_0 : S550000.BroadcastsInDim S550000x1 (![0] : Fin 1 → Fin S550000x1.rank)
  bcast_S_S550000 : S_.BroadcastsInDim S550000 (![] : Fin 0 → Fin S550000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S2000x256_S256x256_S2000x256_1_0_0_1_n_n_wf : DotDims.WF S2000x256 S256x256 S2000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S50000x256_S256x1_S50000x1_1_0_0_1_n_n_wf : DotDims.WF S50000x256 S256x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S500000 : Shape := ⟨1, ![500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S550000x256 : Shape := ⟨2, ![550000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S50000x256, .f32⟩
  | 1 => ⟨S2x500000, .i32⟩
  | 2 => ⟨S500000, .f32⟩
  | 3 => ⟨S256x256, .f32⟩
  | 4 => ⟨S256, .f32⟩
  | 5 => ⟨S256x256, .f32⟩
  | 6 => ⟨S256, .f32⟩
  | 7 => ⟨S256x1, .f32⟩
  | 8 => ⟨S1, .f32⟩
  | 9 => ⟨S1x500000, .i32⟩
  | 10 => ⟨S500000, .i32⟩
  | 11 => ⟨S1x500000, .i32⟩
  | 12 => ⟨S500000, .i32⟩
  | 13 => ⟨S50000, .i32⟩
  | 14 => ⟨S550000, .i32⟩
  | 15 => ⟨S550000, .i32⟩
  | 16 => ⟨S_, .f32⟩
  | 17 => ⟨S50000, .f32⟩
  | 18 => ⟨S550000, .f32⟩
  | 19 => ⟨S_, .f32⟩
  | 20 => ⟨S50000, .f32⟩
  | 21 => ⟨S550000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S550000, .f32⟩
  | 41 => ⟨S_, .i32⟩
  | 42 => ⟨S550000, .i32⟩
  | 43 => ⟨S550000, .i1⟩
  | 44 => ⟨S_, .i32⟩
  | 45 => ⟨S550000, .i32⟩
  | 46 => ⟨S550000, .i32⟩
  | 47 => ⟨S550000, .i32⟩
  | 48 => ⟨S550000x1, .i32⟩
  | 49 => ⟨S550000, .f32⟩
  | 50 => ⟨S550000, .f32⟩
  | 51 => ⟨S50000x256, .f32⟩
  | 52 => ⟨S_, .i32⟩
  | 53 => ⟨S550000, .i32⟩
  | 54 => ⟨S550000, .i1⟩
  | 55 => ⟨S_, .i32⟩
  | 56 => ⟨S550000, .i32⟩
  | 57 => ⟨S550000, .i32⟩
  | 58 => ⟨S550000, .i32⟩
  | 59 => ⟨S550000x1, .i32⟩
  | 60 => ⟨S550000x256, .f32⟩
  | 61 => ⟨S550000x1, .f32⟩
  | 62 => ⟨S550000x256, .f32⟩
  | 63 => ⟨S550000x256, .f32⟩
  | 64 => ⟨S_, .f32⟩
  | 65 => ⟨S50000x256, .f32⟩
  | 66 => ⟨S550000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000, .i32⟩
  | 75 => ⟨S550000, .i32⟩
  | 76 => ⟨S550000, .i32⟩
  | 77 => ⟨S_, .f32⟩
  | 78 => ⟨S50000, .f32⟩
  | 79 => ⟨S550000, .f32⟩
  | 80 => ⟨S_, .f32⟩
  | 81 => ⟨S50000, .f32⟩
  | 82 => ⟨S550000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S550000, .i32⟩
  | 94 => ⟨S550000, .i1⟩
  | 95 => ⟨S_, .i32⟩
  | 96 => ⟨S550000, .i32⟩
  | 97 => ⟨S550000, .i32⟩
  | 98 => ⟨S550000, .i32⟩
  | 99 => ⟨S550000x1, .i32⟩
  | 100 => ⟨S550000, .f32⟩
  | 101 => ⟨S550000, .f32⟩
  | 102 => ⟨S_, .i32⟩
  | 103 => ⟨S550000, .i32⟩
  | 104 => ⟨S550000, .i1⟩
  | 105 => ⟨S_, .i32⟩
  | 106 => ⟨S550000, .i32⟩
  | 107 => ⟨S550000, .i32⟩
  | 108 => ⟨S550000, .i32⟩
  | 109 => ⟨S550000x1, .i32⟩
  | 110 => ⟨S550000, .f32⟩
  | 111 => ⟨S550000, .f32⟩
  | 112 => ⟨S50000x256, .f32⟩
  | 113 => ⟨S_, .i32⟩
  | 114 => ⟨S550000, .i32⟩
  | 115 => ⟨S550000, .i1⟩
  | 116 => ⟨S_, .i32⟩
  | 117 => ⟨S550000, .i32⟩
  | 118 => ⟨S550000, .i32⟩
  | 119 => ⟨S550000, .i32⟩
  | 120 => ⟨S550000x1, .i32⟩
  | 121 => ⟨S550000x256, .f32⟩
  | 122 => ⟨S550000x1, .f32⟩
  | 123 => ⟨S550000x256, .f32⟩
  | 124 => ⟨S550000x256, .f32⟩
  | 125 => ⟨S_, .f32⟩
  | 126 => ⟨S50000x256, .f32⟩
  | 127 => ⟨S550000x1, .i32⟩
  | _ => ⟨S50000x256, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S50000x1, .f32⟩
  | 8 => ⟨S1x1, .f32⟩
  | 9 => ⟨S50000x1, .f32⟩
  | 10 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S50000 : S_.BroadcastsInDim S50000 (![] : Fin 0 → Fin S50000.rank)
  bcast_S550000_S550000x1_0 : S550000.BroadcastsInDim S550000x1 (![0] : Fin 1 → Fin S550000x1.rank)
  bcast_S_S550000 : S_.BroadcastsInDim S550000 (![] : Fin 0 → Fin S550000.rank)
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x256_S256x256_S50000x256_1_0_0_1_n_n_wf : DotDims.WF S50000x256 S256x256 S50000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S50000x256_S256x1_S50000x1_1_0_0_1_n_n_wf : DotDims.WF S50000x256 S256x1 S50000x1 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The idealized kernel's run, with what it leaves in its result buffer named.

  @main is ten segments — three stretches of host operations, a launch, two stretches, a launch, three stretches —
  and the buffers' contents at each boundary are a fold from the launch memory: a stretch applies its operations,
  a launch replaces its result array by what its write-backs leave and keeps every other buffer. Every weakly
  fair execution terminates with each unscoped buffer at the last boundary's contents; read at the result
  buffer and at the nine arguments, that is the statement below.
-/
import proofs.«142696_j69063074120331_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.KernelRun

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.Calls.lean ====
/-
  The three calls the host program makes, as functions of the buffers they read.

  The program outlines `where` and `relu`; each call is three operations on buffers of its own. Whatever the buffers hold
  before, after the call its result buffer holds: for `where`, the selection between the reciprocal square roots and
  a broadcast zero by the mask; for `relu`, the maximum of its operand and a broadcast zero. The calls' values pass
  through transports along the equality of a buffer's type with a value's type; over literal buffers these are
  identities.
-/
import proofs.«142696_j69063074120331_1_alg».proof.Proof.Gen.KernelIdeal.Launch
import proofs.«142696_j69063074120331_1_alg».proof.Proof.LibAfterResultsCat
import Idealize.ShloMosaic.PureOps.Ideal

set_option maxRecDepth 16384

noncomputable section

namespace Cert.KernelIdeal.Calls

open Cert.KernelIdeal Cert.KernelIdeal.Gen Idealize.ShloMosaic Idealize.ShloMosaic.TcCoe Idealize.SL.Sem Idealize.ShloMosaic.StableHlo

variable (X : Valuation τ sig (Elt Ideal))

/-- `where (deg > 0) (rsqrt deg) 0`: the zero is the scalar the caller passes, broadcast. -/
theorem where_call :
    StableHlo.after (hostOps0_1 (F := Ideal)) X (Proc.devRef .tc main_v15)
      = select (X (Proc.devRef .tc main_v13)) (X (Proc.devRef .tc main_v14))
          (broadcastInDim S50000 ![] bcast_S_S50000 (id (X (Proc.devRef .tc main_cst_2)))) := by
  after_results_cat
  after_results_strip

/-- The first layer's `relu`. -/
theorem relu_first :
    StableHlo.after (hostOps1_1 (F := Ideal)) X (Proc.devRef .tc main_v49)
      = maximumf (X (Proc.devRef .tc main_v48))
          (broadcastInDim S50000x256 ![] bcast_S_S50000x256 (constant (F := Ideal) S_ .f32 0x00000000#32)) := by
  after_results_cat
  after_results_strip

/-- The second layer's `relu`. -/
theorem relu_second :
    StableHlo.after (hostOps2_1 (F := Ideal)) X (Proc.devRef .tc main_v67)
      = maximumf (X (Proc.devRef .tc main_v66))
          (broadcastInDim S50000x256 ![] bcast_S_S50000x256 (constant (F := Ideal) S_ .f32 0x00000000#32)) := by
  after_results_cat
  after_results_strip

end Cert.KernelIdeal.Calls

end
-- ==== Proof.FoldEntry.lean ====
/-
  The buffers' contents when the first launch is entered.

  The host operations before the first launch build, from the edge list and the edge weights, the source and
  destination indices with one self-loop per node appended, and the symmetric normalization
  w · deg^(-1/2)[src] · deg^(-1/2)[dst] with deg the weights summed per destination (zero where the degree is not
  positive). They are the reference's first operations, one for one, so each of these three arrays is the
  reference's stage of the same name applied to the same arguments. The other arguments are not written.
  The operations come in three stretches — up to the degrees, the call of `where`, the rest —, read one at a time.
-/
import proofs.«142696_j69063074120331_1_alg».proof.Proof.Gen.KernelIdeal.Frame
import proofs.«142696_j69063074120331_1_alg».proof.Proof.Gen.ReferenceIdeal.Read
import proofs.«142696_j69063074120331_1_alg».proof.Proof.Calls

set_option maxRecDepth 16384

noncomputable section

namespace Cert.KernelIdeal.FoldEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Up to the degrees -/

set_option maxHeartbeats 4000000 in
/-- Where the degree is positive. -/
theorem mask (c : Dev nD) : W1 m ρ c (Proc.devRef .tc main_v13) = Cert.ReferenceIdeal.Read.val_main_v13 (F := Ideal) (m ((c.tc : Thread nD τ).loc main_arg1)) (m ((c.tc : Thread nD τ).loc main_arg2)) := by
  show StableHlo.after hostOps0 (W0 m ρ c) (Proc.devRef .tc main_v13) = _
  after_results_cat <;> rfl

set_option maxHeartbeats 4000000 in
/-- The reciprocal square roots of the degrees. -/
theorem rdeg (c : Dev nD) : W1 m ρ c (Proc.devRef .tc main_v14) = Cert.ReferenceIdeal.Read.val_main_v14 (F := Ideal) (m ((c.tc : Thread nD τ).loc main_arg1)) (m ((c.tc : Thread nD τ).loc main_arg2)) := by
  show StableHlo.after hostOps0 (W0 m ρ c) (Proc.devRef .tc main_v14) = _
  after_results_cat <;> rfl

set_option maxHeartbeats 4000000 in
/-- The scalar zero the call of \`where\` is handed. -/
theorem zero (c : Dev nD) : W1 m ρ c (Proc.devRef .tc main_cst_2) = Cert.ReferenceIdeal.Read.val_main_cst_2 (F := Ideal) := by
  show StableHlo.after hostOps0 (W0 m ρ c) (Proc.devRef .tc main_cst_2) = _
  after_results_cat <;> rfl

/-! ## After the call of `where` -/

/-- The inverse square-root degrees, zero where the degree is not positive. -/
theorem dinv (c : Dev nD) : W2 m ρ c (Proc.devRef .tc main_v15) = Cert.ReferenceIdeal.Read.val_main_v15 (F := Ideal) (m ((c.tc : Thread nD τ).loc main_arg1)) (m ((c.tc : Thread nD τ).loc main_arg2)) := by
  show StableHlo.after hostOps0_1 (W1 m ρ c) (Proc.devRef .tc main_v15) = _
  rw [Calls.where_call (W1 m ρ c), mask m ρ c, rdeg m ρ c, zero m ρ c]
  rfl

set_option maxHeartbeats 4000000 in
/-- The source indices, self-loops appended, are not touched by the call, -/
theorem src2 (c : Dev nD) : W2 m ρ c (Proc.devRef .tc main_v5) = Cert.ReferenceIdeal.Read.val_main_v5 (F := Ideal) (m ((c.tc : Thread nD τ).loc main_arg1)) := by
  show StableHlo.after hostOps0_1 (StableHlo.after hostOps0 (W0 m ρ c)) (Proc.devRef .tc main_v5) = _
  after_results_cat <;> rfl

set_option maxHeartbeats 4000000 in
/-- nor the destination indices, -/
theorem dst2 (c : Dev nD) : W2 m ρ c (Proc.devRef .tc main_v6) = Cert.ReferenceIdeal.Read.val_main_v6 (F := Ideal) (m ((c.tc : Thread nD τ).loc main_arg1)) := by
  show StableHlo.after hostOps0_1 (StableHlo.after hostOps0 (W0 m ρ c)) (Proc.devRef .tc main_v6) = _
  after_results_cat <;> rfl

set_option maxHeartbeats 4000000 in
/-- nor the weights with a one per self-loop. -/
theorem wts2 (c : Dev nD) : W2 m ρ c (Proc.devRef .tc main_v8) = Cert.ReferenceIdeal.Read.val_main_v8 (F := Ideal) (m ((c.tc : Thread nD τ).loc main_arg2)) := by
  show StableHlo.after hostOps0_1 (StableHlo.after hostOps0 (W0 m ρ c)) (Proc.devRef .tc main_v8) = _
  after_results_cat <;> rfl

/-! ## At the first launch's entry -/

set_option maxHeartbeats 4000000 in
/-- The source indices, self-loops appended. -/
theorem src (c : Dev nD) : W3 m ρ c (Proc.devRef .tc main_v5) = Cert.ReferenceIdeal.Read.val_main_v5 (F := Ideal) (m ((c.tc : Thread nD τ).loc main_arg1)) := by
  show StableHlo.after hostOps0_2 (StableHlo.after hostOps0_1 (StableHlo.after hostOps0 (W0 m ρ c))) (Proc.devRef .tc main_v5) = _
  after_results_cat <;> rfl

set_option maxHeartbeats 4000000 in
/-- The destination indices, self-loops appended. -/
theorem dst (c : Dev nD) : W3 m ρ c (Proc.devRef .tc main_v6) = Cert.ReferenceIdeal.Read.val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_cat <;> rfl

set_option maxHeartbeats 4000000 in
/-- The normalization of every edge and self-loop. -/
theorem norm (c : Dev nD) : W3 m ρ c (Proc.devRef .tc main_v31) = Cert.ReferenceIdeal.Read.val_main_v31 (F := Ideal) (m ((c.tc : Thread nD τ).loc main_arg1)) (m ((c.tc : Thread nD τ).loc main_arg2)) := by
  have h15 := dinv m ρ c
  have h5 := src2 m ρ c
  have h6 := dst2 m ρ c
  have h8 := wts2 m ρ c
  show StableHlo.after hostOps0_2 (W2 m ρ c) (Proc.devRef .tc main_v31) = _
  generalize W2 m ρ c = X at h15 h5 h6 h8 ⊢
  after_results_cat
  rw [h15, h5, h6, h8]
  rfl

set_option maxHeartbeats 4000000 in
/-- No host operation before the first launch writes argument 0. -/
theorem arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_cat <;> rfl

set_option maxHeartbeats 4000000 in
/-- No host operation before the first launch writes argument 3. -/
theorem arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_cat <;> rfl

set_option maxHeartbeats 4000000 in
/-- No host operation before the first launch writes argument 4. -/
theorem arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_cat <;> rfl

set_option maxHeartbeats 4000000 in
/-- No host operation before the first launch writes argument 5. -/
theorem arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_cat <;> rfl

set_option maxHeartbeats 4000000 in
/-- No host operation before the first launch writes argument 6. -/
theorem arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_cat <;> rfl

set_option maxHeartbeats 4000000 in
/-- No host operation before the first launch writes argument 7. -/
theorem arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_cat <;> rfl

set_option maxHeartbeats 4000000 in
/-- No host operation before the first launch writes argument 8. -/
theorem arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results_cat <;> rfl

end Cert.KernelIdeal.FoldEntry

end
-- ==== Proof.MatmulAt.lean ====
/-
  The product one grid point computes, read at an index.

  At the ideal instance a change of float format is the identity and the matrix unit's product into a zero
  accumulator is the plain sum over the contracted axis: entry (r, n) of a block's product is
  ∑ k, x (r, k) · w (k, n) on the extended reals, a sum over the 256 columns of the row block and the 256 rows
  of the weight. Both kernel bodies compute exactly this; the second first casts the row block to its own
  shape, which changes nothing.
-/
import proofs.«142696_j69063074120331_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MatmulAt

open Cert.KernelIdeal Cert.KernelIdeal.Gen Idealize.ShloMosaic Idealize.ShloMosaic.TcCoe Idealize.SL.Sem

/-- Entry (row of `j`, `k`) of a row block. -/
abbrev lrow (j : S2000x256.Idx) (k : Fin 256) : S2000x256.Idx := fun a => match a with
  | ⟨0, _⟩ => ⟨(j 0).val, (j 0).isLt⟩
  | ⟨1, _⟩ => ⟨k.val, k.isLt⟩
/-- Entry (`k`, column of `j`) of the weight. -/
abbrev rcol (j : S2000x256.Idx) (k : Fin 256) : S256x256.Idx := fun a => match a with
  | ⟨0, _⟩ => ⟨k.val, k.isLt⟩
  | ⟨1, _⟩ => ⟨(j 1).val, (j 1).isLt⟩

/-- The left operand's row is the result's row. -/
theorem lhs_row (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the contracted coordinate. -/
theorem lhs_k (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
/-- The right operand's row is the contracted coordinate. -/
theorem rhs_k (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
/-- The right operand's column is the result's column. -/
theorem rhs_col (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix unit's product into a zero accumulator, at an entry: the sum over the contracted axis. -/
theorem matmul_zero_at (x : FVec Ideal S2000x256 .bf16) (w : FVec Ideal S256x256 .bf16) (j : S2000x256.Idx) :
    matmul dot_S2000x256_S256x256_S2000x256_1_0_0_1_n_n none x w (constant (F := Ideal) S2000x256 .f32 0x00000000#32) j
      = ∑ k : Fin 256, x (lrow j k) * w (rcol j k) := by
  show FloatOps.matmul dot_S2000x256_S256x256_S2000x256_1_0_0_1_n_n none x w (constant (F := Ideal) S2000x256 .f32 0x00000000#32) j = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = lrow j k := funext fun a => Fin.ext (by
    match a with
    | ⟨0, _⟩ => exact lhs_row _ _
    | ⟨1, _⟩ => exact (lhs_k _ _).trans hk)
  have er : dot_S2000x256_S256x256_S2000x256_1_0_0_1_n_n.rhsIdx j ((ValueIdx.contrEquiv1 dot_S2000x256_S256x256_S2000x256_1_0_0_1_n_n 256 rfl rfl).symm k) = rcol j k := funext fun a => Fin.ext (by
    match a with
    | ⟨0, _⟩ => exact (rhs_k _ _).trans hk
    | ⟨1, _⟩ => exact rhs_col _ _)
  rw [el, er]

/-- What the first kernel's body stores, at an entry: the row block times the weight. -/
theorem pay0_at (x : Vec Ideal S2000x256 .f32) (w : Vec Ideal S256x256 .f32) (j : S2000x256.Idx) :
    k0_pay1 (F := Ideal) x w j = ∑ k : Fin 256, x (lrow j k) * w (rcol j k) := by
  unfold k0_pay1
  exact matmul_zero_at (truncf .bf16 x bitsLt_bf16_f32) (truncf .bf16 w bitsLt_bf16_f32) j

/-- What the second kernel's body stores, at an entry: the same product (the cast to the block's own shape is
    the identity). -/
theorem pay1_at (x : Vec Ideal S2000x256 .f32) (w : Vec Ideal S256x256 .f32) (j : S2000x256.Idx) :
    k1_pay1 (F := Ideal) x w j = ∑ k : Fin 256, x (lrow j k) * w (rcol j k) := by
  unfold k1_pay1
  rw [shapeCast_self]
  exact matmul_zero_at (truncf .bf16 x bitsLt_bf16_f32) (truncf .bf16 w bitsLt_bf16_f32) j

end Cert.KernelIdeal.MatmulAt

end
-- ==== Proof.RegionArrays.lean ====
/-
  What each launch leaves in its result array.

  A launch walks 25 grid points; point t reads rows 2000·t … 2000·t + 1999 of its left operand and the whole
  256 × 256 weight, and writes the product back to the same rows of the result. Entry (r, n) of a block's product
  is ∑ k, x (2000·t + r, k) · w (k, n) — the entry (2000·t + r, n) of the product of the WHOLE arrays, which is what
  the host's dot_general computes at the ideal instance. The 25 row blocks fill the 50000 rows, so after the launch
  the result array is that whole product. Stated for any contents `V` the region is entered from.
-/
import proofs.«142696_j69063074120331_1_alg».proof.Proof.Gen.KernelIdeal.Frame
import proofs.«142696_j69063074120331_1_alg».proof.Proof.Gen.ReferenceIdeal.Read
import proofs.«142696_j69063074120331_1_alg».proof.Proof.MatmulAt

set_option maxRecDepth 16384

noncomputable section

namespace Cert.KernelIdeal.RegionArrays

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the array `main_v32` after the launch -/

section Region0

/-- The printed index maps over the 25 grid points: the row block and the result block move together along the
    rows, the weight stays put, and nothing moves along the columns. -/
theorem idx0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 25 row blocks is some point's. -/
theorem onto0 : ∀ q : Fin 25, ∃ t : Fin cfg0.N, win0_2.index t = ![q.val, 0] :=
  (by decide +kernel : ∀ q : Fin 25, ∃ t : Fin grid0.N, win0_2.index t = ![q.val, 0])

/-- Entry (r, k) of point `t`'s row block is entry (row of the result's entry, k) of the whole left operand. -/
theorem lblk0 (t : Fin cfg0.N) (j : S2000x256.Idx) (k : Fin 256) :
    ((cfg0.win 0).blk t).view.emb (MatmulAt.lrow j k) = Cert.ReferenceIdeal.Read.lidx_main_v32 (((cfg0.win 2).blk t).view.emb j) k := by
  obtain ⟨e0, e1, -, -, -⟩ := idx0 t
  funext a; apply Fin.ext
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 256 + 1 * k.val = k.val; omega

/-- Entry (k, n) of the weight block is entry (k, column of the result's entry) of the whole weight. -/
theorem rblk0 (t : Fin cfg0.N) (j : S2000x256.Idx) (k : Fin 256) :
    ((cfg0.win 1).blk t).view.emb (MatmulAt.rcol j k) = Cert.ReferenceIdeal.Read.ridx_main_v32 (((cfg0.win 2).blk t).view.emb j) k := by
  obtain ⟨-, -, e2, e3, e4⟩ := idx0 t
  funext a; apply Fin.ext
  match a with
  | ⟨0, _⟩ => show win0_1.index t (0 : Fin 2) * 256 + 1 * k.val = k.val; omega
  | ⟨1, _⟩ => show win0_1.index t (1 : Fin 2) * 256 + 1 * (j 1).val = win0_2.index t (1 : Fin 2) * 256 + 1 * (j 1).val; omega

/-- What point `t` writes back is block `t` of the whole product of the two arrays the region reads. -/
theorem flushed0_eq (c : Dev nD) (t : Fin cfg0.N) :
    (dat0 V c).flushed 2 t = ((cfg0.win 2).blk t).view.read (Elt Ideal)
      (Cert.ReferenceIdeal.Read.val_main_v32 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  funext j
  show k0_pay1 (F := Ideal) (iblk0 V c 0 t) (iblk0 V c 1 t) j
      = Cert.ReferenceIdeal.Read.val_main_v32 (F := Ideal) (V c main_arg0) (V c main_arg3) (((cfg0.win 2).blk t).view.emb j)
  refine (MatmulAt.pay0_at (iblk0 V c 0 t) (iblk0 V c 1 t) j).trans ?_
  refine Eq.trans ?_ (Cert.ReferenceIdeal.Read.val_main_v32_apply (V c main_arg0) (V c main_arg3) (((cfg0.win 2).blk t).view.emb j)).symm
  refine Finset.sum_congr rfl fun k _ => ?_
  exact congrArg₂ (fun a b : EReal => a * b) (congrArg (V c main_arg0) (lblk0 t j k)) (congrArg (V c main_arg3) (rblk0 t j k))

/-- An entry of the array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- The 25 row blocks fill the array: row r lies in block r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The array after the launch is the whole product of the two arrays the region reads. -/
theorem final0 (c : Dev nD) :
    (dat0 V c).arrAt 2 cfg0.N = Cert.ReferenceIdeal.Read.val_main_v32 (F := Ideal) (V c main_arg0) (V c main_arg3) :=
  (dat0 V c).arrAt_eq_of_cover 2 _ (fun t _ => flushed0_eq V c t) (cover0)

end Region0

/-! ## Region 1: the array `main_v50` after the launch -/

section Region1

/-- The printed index maps over the 25 grid points: the row block and the result block move together along the
    rows, the weight stays put, and nothing moves along the columns. -/
theorem idx1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the 25 row blocks is some point's. -/
theorem onto1 : ∀ q : Fin 25, ∃ t : Fin cfg1.N, win1_2.index t = ![q.val, 0] :=
  (by decide +kernel : ∀ q : Fin 25, ∃ t : Fin grid1.N, win1_2.index t = ![q.val, 0])

/-- Entry (r, k) of point `t`'s row block is entry (row of the result's entry, k) of the whole left operand. -/
theorem lblk1 (t : Fin cfg1.N) (j : S2000x256.Idx) (k : Fin 256) :
    ((cfg1.win 0).blk t).view.emb (MatmulAt.lrow j k) = Cert.ReferenceIdeal.Read.lidx_main_v32 (((cfg1.win 2).blk t).view.emb j) k := by
  obtain ⟨e0, e1, -, -, -⟩ := idx1 t
  funext a; apply Fin.ext
  match a with
  | ⟨0, _⟩ => show win1_0.index t (0 : Fin 2) * 2000 + 1 * (j 0).val = win1_2.index t (0 : Fin 2) * 2000 + 1 * (j 0).val; omega
  | ⟨1, _⟩ => show win1_0.index t (1 : Fin 2) * 256 + 1 * k.val = k.val; omega

/-- Entry (k, n) of the weight block is entry (k, column of the result's entry) of the whole weight. -/
theorem rblk1 (t : Fin cfg1.N) (j : S2000x256.Idx) (k : Fin 256) :
    ((cfg1.win 1).blk t).view.emb (MatmulAt.rcol j k) = Cert.ReferenceIdeal.Read.ridx_main_v32 (((cfg1.win 2).blk t).view.emb j) k := by
  obtain ⟨-, -, e2, e3, e4⟩ := idx1 t
  funext a; apply Fin.ext
  match a with
  | ⟨0, _⟩ => show win1_1.index t (0 : Fin 2) * 256 + 1 * k.val = k.val; omega
  | ⟨1, _⟩ => show win1_1.index t (1 : Fin 2) * 256 + 1 * (j 1).val = win1_2.index t (1 : Fin 2) * 256 + 1 * (j 1).val; omega

/-- What point `t` writes back is block `t` of the whole product of the two arrays the region reads. -/
theorem flushed1_eq (c : Dev nD) (t : Fin cfg1.N) :
    (dat1 V c).flushed 2 t = ((cfg1.win 2).blk t).view.read (Elt Ideal)
      (Cert.ReferenceIdeal.Read.val_main_v32 (F := Ideal) (V c main_v49) (V c main_arg5)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  funext j
  show k1_pay1 (F := Ideal) (iblk1 V c 0 t) (iblk1 V c 1 t) j
      = Cert.ReferenceIdeal.Read.val_main_v32 (F := Ideal) (V c main_v49) (V c main_arg5) (((cfg1.win 2).blk t).view.emb j)
  refine (MatmulAt.pay1_at (iblk1 V c 0 t) (iblk1 V c 1 t) j).trans ?_
  refine Eq.trans ?_ (Cert.ReferenceIdeal.Read.val_main_v32_apply (V c main_v49) (V c main_arg5) (((cfg1.win 2).blk t).view.emb j)).symm
  refine Finset.sum_congr rfl fun k _ => ?_
  exact congrArg₂ (fun a b : EReal => a * b) (congrArg (V c main_v49) (lblk1 t j k)) (congrArg (V c main_arg5) (rblk1 t j k))

/-- An entry of the array is in point `t`'s block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v50).slice (win1_2.rect t)).set ↔ _
  rw [View.set_slice_whole, Rect.mem_set_unit]
  exact Iff.rfl

/-- The 25 row blocks fill the array: row r lies in block r / 2000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The array after the launch is the whole product of the two arrays the region reads. -/
theorem final1 (c : Dev nD) :
    (dat1 V c).arrAt 2 cfg1.N = Cert.ReferenceIdeal.Read.val_main_v32 (F := Ideal) (V c main_v49) (V c main_arg5) :=
  (dat1 V c).arrAt_eq_of_cover 2 _ (fun t _ => flushed1_eq V c t) (cover1)

end Region1

end Cert.KernelIdeal.RegionArrays

end
-- ==== Proof.FoldValue.lean ====
/-
  From the first launch to the result.

  The first launch leaves x · W1 in its result array and every other buffer as it was. The operations up to the
  second launch gather that product's rows by source index, scale each by the edge's normalization, add the rows
  up per destination, add the bias and clamp at zero: the reference's first layer, operation for operation, so the
  second launch's left operand is the reference's hidden layer. The second launch leaves (hidden layer) · W2, and
  the operations after it repeat the aggregation with the second bias, clamp, and project with Wl and bl. The
  reference rebuilds the indices and the normalization before its second layer; the rebuilt arrays are the same
  functions of the same arguments as the first ones, so the kernel's single copy serves both layers.
-/
import proofs.«142696_j69063074120331_1_alg».proof.Proof.FoldEntry
import proofs.«142696_j69063074120331_1_alg».proof.Proof.RegionArrays

set_option maxRecDepth 16384

noncomputable section

namespace Cert.KernelIdeal.FoldValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first launch -/

/-- The first launch's result array is the whole product x · W1. -/
theorem first_product (c : Dev nD) :
    W4 m ρ c (Proc.devRef .tc main_v32) = Cert.ReferenceIdeal.Read.val_main_v32 (F := Ideal) (m ((c.tc : Thread nD τ).loc main_arg0)) (m ((c.tc : Thread nD τ).loc main_arg3)) := by
  refine (W4_arr m ρ c 2).trans ((RegionArrays.final0 (V3 m ρ) c).trans ?_)
  show Cert.ReferenceIdeal.Read.val_main_v32 (F := Ideal) (W3 m ρ c (Proc.devRef .tc main_arg0)) (W3 m ρ c (Proc.devRef .tc main_arg3)) = _
  rw [FoldEntry.arg0 m ρ c, FoldEntry.arg3 m ρ c]

theorem first_src (c : Dev nD) : W4 m ρ c (Proc.devRef .tc main_v5) = Cert.ReferenceIdeal.Read.val_main_v5 (F := Ideal) (m ((c.tc : Thread nD τ).loc main_arg1)) :=
  (W4_of_ne m ρ c main_v5 (by decide)).trans (FoldEntry.src m ρ c)
theorem first_dst (c : Dev nD) : W4 m ρ c (Proc.devRef .tc main_v6) = Cert.ReferenceIdeal.Read.val_main_v6 (F := Ideal) (m ((c.tc : Thread nD τ).loc main_arg1)) :=
  (W4_of_ne m ρ c main_v6 (by decide)).trans (FoldEntry.dst m ρ c)
theorem first_norm (c : Dev nD) : W4 m ρ c (Proc.devRef .tc main_v31) = Cert.ReferenceIdeal.Read.val_main_v31 (F := Ideal) (m ((c.tc : Thread nD τ).loc main_arg1)) (m ((c.tc : Thread nD τ).loc main_arg2)) :=
  (W4_of_ne m ρ c main_v31 (by decide)).trans (FoldEntry.norm m ρ c)
theorem first_arg4 (c : Dev nD) : W4 m ρ c (Proc.devRef .tc main_arg4) = m ((c.tc : Thread nD τ).loc main_arg4) :=
  (W4_of_ne m ρ c main_arg4 (by decide)).trans (FoldEntry.arg4 m ρ c)
theorem first_arg5 (c : Dev nD) : W4 m ρ c (Proc.devRef .tc main_arg5) = m ((c.tc : Thread nD τ).loc main_arg5) :=
  (W4_of_ne m ρ c main_arg5 (by decide)).trans (FoldEntry.arg5 m ρ c)
theorem first_arg6 (c : Dev nD) : W4 m ρ c (Proc.devRef .tc main_arg6) = m ((c.tc : Thread nD τ).loc main_arg6) :=
  (W4_of_ne m ρ c main_arg6 (by decide)).trans (FoldEntry.arg6 m ρ c)
theorem first_arg7 (c : Dev nD) : W4 m ρ c (Proc.devRef .tc main_arg7) = m ((c.tc : Thread nD τ).loc main_arg7) :=
  (W4_of_ne m ρ c main_arg7 (by decide)).trans (FoldEntry.arg7 m ρ c)
theorem first_arg8 (c : Dev nD) : W4 m ρ c (Proc.devRef .tc main_arg8) = m ((c.tc : Thread nD τ).loc main_arg8) :=
  (W4_of_ne m ρ c main_arg8 (by decide)).trans (FoldEntry.arg8 m ρ c)

/-! ## Between the launches -/

set_option maxHeartbeats 4000000 in
/-- The first layer before its clamp: the aggregated rows of x · W1 plus the bias. -/
theorem hidden_pre (c : Dev nD) :
    W5 m ρ c (Proc.devRef .tc main_v48) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h32 := first_product m ρ c
  have h5 := first_src m ρ c
  have h6 := first_dst m ρ c
  have h31 := first_norm m ρ c
  have h4 := first_arg4 m ρ c
  show StableHlo.after hostOps1 (W4 m ρ c) (Proc.devRef .tc main_v48) = _
  generalize W4 m ρ c = X at h32 h5 h6 h31 h4 ⊢
  after_results_cat
  rw [h32, h5, h6, h31, h4]
  rfl

/-- The second launch's left operand is the reference's hidden layer. -/
theorem hidden (c : Dev nD) :
    W6 m ρ c (Proc.devRef .tc main_v49) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1_1 (W5 m ρ c) (Proc.devRef .tc main_v49) = _
  rw [Calls.relu_first (W5 m ρ c), hidden_pre m ρ c]
  rfl

set_option maxHeartbeats 4000000 in
/-- The operations between the launches do not write the source indices, -/
theorem mid_src (c : Dev nD) : W6 m ρ c (Proc.devRef .tc main_v5) = W4 m ρ c (Proc.devRef .tc main_v5) := by
  show StableHlo.after hostOps1_1 (StableHlo.after hostOps1 (W4 m ρ c)) (Proc.devRef .tc main_v5) = _
  generalize W4 m ρ c = X
  after_results_cat

set_option maxHeartbeats 4000000 in
/-- nor the destination indices, -/
theorem mid_dst (c : Dev nD) : W6 m ρ c (Proc.devRef .tc main_v6) = W4 m ρ c (Proc.devRef .tc main_v6) := by
  show StableHlo.after hostOps1_1 (StableHlo.after hostOps1 (W4 m ρ c)) (Proc.devRef .tc main_v6) = _
  generalize W4 m ρ c = X
  after_results_cat

set_option maxHeartbeats 4000000 in
/-- nor the normalization, -/
theorem mid_norm (c : Dev nD) : W6 m ρ c (Proc.devRef .tc main_v31) = W4 m ρ c (Proc.devRef .tc main_v31) := by
  show StableHlo.after hostOps1_1 (StableHlo.after hostOps1 (W4 m ρ c)) (Proc.devRef .tc main_v31) = _
  generalize W4 m ρ c = X
  after_results_cat

set_option maxHeartbeats 4000000 in
/-- nor argument 5. -/
theorem mid_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  generalize W4 m ρ c = X
  after_results_cat

set_option maxHeartbeats 4000000 in
/-- nor argument 6. -/
theorem mid_arg6 (c : Dev nD) : W6 m ρ c (Proc.devRef .tc main_arg6) = W4 m ρ c (Proc.devRef .tc main_arg6) := by
  show StableHlo.after hostOps1_1 (StableHlo.after hostOps1 (W4 m ρ c)) (Proc.devRef .tc main_arg6) = _
  generalize W4 m ρ c = X
  after_results_cat

set_option maxHeartbeats 4000000 in
/-- nor argument 7. -/
theorem mid_arg7 (c : Dev nD) : W6 m ρ c (Proc.devRef .tc main_arg7) = W4 m ρ c (Proc.devRef .tc main_arg7) := by
  show StableHlo.after hostOps1_1 (StableHlo.after hostOps1 (W4 m ρ c)) (Proc.devRef .tc main_arg7) = _
  generalize W4 m ρ c = X
  after_results_cat

set_option maxHeartbeats 4000000 in
/-- nor argument 8. -/
theorem mid_arg8 (c : Dev nD) : W6 m ρ c (Proc.devRef .tc main_arg8) = W4 m ρ c (Proc.devRef .tc main_arg8) := by
  show StableHlo.after hostOps1_1 (StableHlo.after hostOps1 (W4 m ρ c)) (Proc.devRef .tc main_arg8) = _
  generalize W4 m ρ c = X
  after_results_cat

/-! ## After the second launch -/

/-- The second launch's result array is (hidden layer) · W2. -/
theorem second_product (c : Dev nD) :
    W7 m ρ c (Proc.devRef .tc main_v50) = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ((RegionArrays.final1 (V6 m ρ) c).trans ?_)
  show Cert.ReferenceIdeal.Read.val_main_v32 (F := Ideal) (W6 m ρ c (Proc.devRef .tc main_v49)) (W6 m ρ c (Proc.devRef .tc main_arg5)) = _
  rw [hidden m ρ c, (mid_arg5 m ρ c).trans (first_arg5 m ρ c)]
  rfl

theorem second_src (c : Dev nD) : W7 m ρ c (Proc.devRef .tc main_v5) = Cert.ReferenceIdeal.Read.val_main_v5 (F := Ideal) (m ((c.tc : Thread nD τ).loc main_arg1)) :=
  (W7_of_ne m ρ c main_v5 (by decide)).trans ((mid_src m ρ c).trans (first_src m ρ c))
theorem second_dst (c : Dev nD) : W7 m ρ c (Proc.devRef .tc main_v6) = Cert.ReferenceIdeal.Read.val_main_v6 (F := Ideal) (m ((c.tc : Thread nD τ).loc main_arg1)) :=
  (W7_of_ne m ρ c main_v6 (by decide)).trans ((mid_dst m ρ c).trans (first_dst m ρ c))
theorem second_norm (c : Dev nD) : W7 m ρ c (Proc.devRef .tc main_v31) = Cert.ReferenceIdeal.Read.val_main_v31 (F := Ideal) (m ((c.tc : Thread nD τ).loc main_arg1)) (m ((c.tc : Thread nD τ).loc main_arg2)) :=
  (W7_of_ne m ρ c main_v31 (by decide)).trans ((mid_norm m ρ c).trans (first_norm m ρ c))
theorem second_arg6 (c : Dev nD) : W7 m ρ c (Proc.devRef .tc main_arg6) = m ((c.tc : Thread nD τ).loc main_arg6) :=
  (W7_of_ne m ρ c main_arg6 (by decide)).trans ((mid_arg6 m ρ c).trans (first_arg6 m ρ c))
theorem second_arg7 (c : Dev nD) : W7 m ρ c (Proc.devRef .tc main_arg7) = m ((c.tc : Thread nD τ).loc main_arg7) :=
  (W7_of_ne m ρ c main_arg7 (by decide)).trans ((mid_arg7 m ρ c).trans (first_arg7 m ρ c))
theorem second_arg8 (c : Dev nD) : W7 m ρ c (Proc.devRef .tc main_arg8) = m ((c.tc : Thread nD τ).loc main_arg8) :=
  (W7_of_ne m ρ c main_arg8 (by decide)).trans ((mid_arg8 m ρ c).trans (first_arg8 m ρ c))

/-! ## The result -/

set_option maxHeartbeats 4000000 in
/-- The second layer before its clamp: the aggregated rows of (hidden layer) · W2 plus the second bias. -/
theorem out_pre (c : Dev nD) :
    W8 m ρ c (Proc.devRef .tc main_v66) = Cert.ReferenceIdeal.Read.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h50 := second_product m ρ c
  have h5 := second_src m ρ c
  have h6 := second_dst m ρ c
  have h31 := second_norm m ρ c
  have h6' := second_arg6 m ρ c
  show StableHlo.after hostOps2 (W7 m ρ c) (Proc.devRef .tc main_v66) = _
  generalize W7 m ρ c = X at h50 h5 h6 h31 h6' ⊢
  after_results_cat
  rw [h50, h5, h6, h31, h6']
  rfl

/-- The second layer, clamped at zero. -/
theorem out_act (c : Dev nD) :
    W9 m ρ c (Proc.devRef .tc main_v67) = Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2_1 (W8 m ρ c) (Proc.devRef .tc main_v67) = _
  rw [Calls.relu_second (W8 m ρ c), out_pre m ρ c]
  rfl

set_option maxHeartbeats 4000000 in
/-- The operations after the second launch, up to its clamp, do not write argument 7. -/
theorem tail_arg7 (c : Dev nD) : W9 m ρ c (Proc.devRef .tc main_arg7) = m ((c.tc : Thread nD τ).loc main_arg7) := by
  refine Eq.trans ?_ (second_arg7 m ρ c)
  show StableHlo.after hostOps2_1 (StableHlo.after hostOps2 (W7 m ρ c)) (Proc.devRef .tc main_arg7) = _
  generalize W7 m ρ c = X
  after_results_cat

set_option maxHeartbeats 4000000 in
/-- The operations after the second launch, up to its clamp, do not write argument 8. -/
theorem tail_arg8 (c : Dev nD) : W9 m ρ c (Proc.devRef .tc main_arg8) = m ((c.tc : Thread nD τ).loc main_arg8) := by
  refine Eq.trans ?_ (second_arg8 m ρ c)
  show StableHlo.after hostOps2_1 (StableHlo.after hostOps2 (W7 m ρ c)) (Proc.devRef .tc main_arg8) = _
  generalize W7 m ρ c = X
  after_results_cat

set_option maxHeartbeats 4000000 in
/-- What the idealized kernel leaves in its result buffer is the reference's last stage of the same arguments:
    the clamped second layer projected with Wl, plus bl. -/
theorem result (c : Dev nD) :
    W10 m ρ c (Proc.devRef .tc main_v71) = Cert.ReferenceIdeal.Read.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h67 := out_act m ρ c
  have h7 := tail_arg7 m ρ c
  have h8 := tail_arg8 m ρ c
  show StableHlo.after hostOps2_2 (W9 m ρ c) (Proc.devRef .tc main_v71) = _
  generalize W9 m ρ c = X at h67 h7 h8 ⊢
  after_results_cat
  rw [h67, h7, h8]
  rfl

end Cert.KernelIdeal.FoldValue

end
-- ==== Proof.lean ====
/-
  A two-layer graph convolution: the Pallas kernel against its jnp reference, at the ideal instance.

  Both programs compute, for node features x, an edge list with weights, and weights W1, b1, W2, b2, Wl, bl,
      out = relu (A · (relu (A · (x · W1) + b1) · W2) + b2) · Wl + bl,
  where A aggregates rows over the edges and one self-loop per node with the symmetric normalization
  w · deg^(-1/2)[src] · deg^(-1/2)[dst]. Every host operation — the index arrays, the degrees, the
  normalization, gather, scale, scatter-add, bias, clamp, the last projection — is the same operation in both
  programs, applied in the same order. They differ in two places only. The kernel computes the two dense
  products x · W1 and h · W2 on the matrix unit, 2000 rows at a grid point, after casting both operands to
  bf16; at the ideal instance the cast is the identity and a product into a zero accumulator is the plain sum over
  the contracted axis, so the 25 row blocks assemble to the host's dot_general of the whole arrays. And the
  reference rebuilds the index arrays and the normalization before its second layer, where the kernel keeps the
  first copies: the same functions of the same arguments. No law used needs finite entries, so the precondition
  is never opened.

  The idealization rewrote no operation of the kernel, so there is nothing for `preserves` to state. Each frame
  says that the program terminates without a fault and leaves its nine arguments as they were; the reference has no
  kernel, so its frame is its run with the result forgotten.
-/
import proofs.«142696_j69063074120331_1_alg».proof.Defs
import proofs.«142696_j69063074120331_1_alg».proof.Proof.Gen.Kernel
import proofs.«142696_j69063074120331_1_alg».proof.Proof.Gen.Kernel.Skeleton
import proofs.«142696_j69063074120331_1_alg».proof.Proof.Gen.Kernel.Launch
import proofs.«142696_j69063074120331_1_alg».proof.Proof.Gen.Kernel.Points
import proofs.«142696_j69063074120331_1_alg».proof.Proof.Gen.Kernel.Frame
import proofs.«142696_j69063074120331_1_alg».proof.Proof.Gen.KernelIdeal
import proofs.«142696_j69063074120331_1_alg».proof.Proof.Gen.KernelIdeal.Skeleton
import proofs.«142696_j69063074120331_1_alg».proof.Proof.Gen.KernelIdeal.Launch
import proofs.«142696_j69063074120331_1_alg».proof.Proof.Gen.KernelIdeal.Points
import proofs.«142696_j69063074120331_1_alg».proof.Proof.Gen.KernelIdeal.Frame
import proofs.«142696_j69063074120331_1_alg».proof.Proof.Gen.ReferenceIdeal
import proofs.«142696_j69063074120331_1_alg».proof.Proof.Gen.ReferenceIdeal.Run
import proofs.«142696_j69063074120331_1_alg».proof.Proof.Gen.ReferenceIdeal.Read
import proofs.«142696_j69063074120331_1_alg».proof.Proof.Gen.Pre_finite_inputs
import Idealize.ShloMosaic.Adequacy
import Idealize.ShloMosaic.Init

import proofs.«142696_j69063074120331_1_alg».proof.Proof.KernelRun
import proofs.«142696_j69063074120331_1_alg».proof.Proof.FoldValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the nine arguments, the idealized kernel ends with its result buffer at the
    last boundary's contents, which is the reference's last stage of the kernel's arguments; the reference ends at
    that stage of its own arguments, which are the same arrays. -/
theorem algebraic : Cert.algebraic_KernelIdeal_ReferenceIdeal := by
  intro m ρ m' ρ' _ hagree
  refine ⟨fun c => Cert.KernelIdeal.Gen.W10 m ρ c (Proc.devRef .tc Cert.KernelIdeal.main_v71),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v99_eq, h0, h1, h2, h3, h4, h5, h6, h7, h8]
  exact (Cert.KernelIdeal.FoldValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
